-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x384 : Shape := ⟨3, ![1, 768, 384]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S1x768x384 : S_.BroadcastsInDim S1x768x384 (![] : Fin 0 → Fin S1x768x384.rank)
  reducesTo_S1x768x384_S_d0_1_2 : S1x768x384.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x768x384 .f32) (main_arg1 : FVec F S128x384 .f32) (main_arg2 : FVec F S128 .f32) (main_arg3 : FVec F S128x384 .f32) (main_arg4 : FVec F S128 .f32) (main_arg5 : FVec F S128x256 .f32) (main_arg6 : FVec F S128 .f32) : IVec S_ 1 :=
  let main_v0 : FVec F S1x768x384 .f32 := Host.absf main_arg0
  let main_cst : FVec F S_ .f32 := constant S_ .f32 0x7F800000#32
  let main_v1 : FVec F S1x768x384 .f32 := broadcastInDim S1x768x384 ![] bcast_S_S1x768x384 main_cst
  let main_v2 : IVec S1x768x384 1 := cmpf .olt main_v0 main_v1
  let main_c : IVec S_ 1 := constantI S_ 1 1#1
  let main_v3 : IVec S_ 1 := (fun x v => Host.reduce IntOp.andi x v reducesTo_S1x768x384_S_d0_1_2 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_v13 main_v16
-- ==== Kernel.lean ====
abbrev S1x768x384 : Shape := ⟨3, ![1, 768, 384]⟩
abbrev S128x384 : Shape := ⟨2, ![128, 384]⟩
abbrev S128 : Shape := ⟨1, ![128]⟩
abbrev S128x256 : Shape := ⟨2, ![128, 256]⟩
abbrev S768x384 : Shape := ⟨2, ![768, 384]⟩
abbrev S128x128 : Shape := ⟨2, ![128, 128]⟩
abbrev S768x128 : Shape := ⟨2, ![768, 128]⟩
abbrev S384x128 : Shape := ⟨2, ![384, 128]⟩
abbrev S1x128 : Shape := ⟨2, ![1, 128]⟩
abbrev S768x768x128 : Shape := ⟨3, ![768, 768, 128]⟩
abbrev S96x128 : Shape := ⟨2, ![96, 128]⟩
abbrev S96x128x128 : Shape := ⟨3, ![96, 128, 128]⟩
abbrev S96x1x128 : Shape := ⟨3, ![96, 1, 128]⟩
abbrev S1x128x128 : Shape := ⟨3, ![1, 128, 128]⟩
abbrev S1x768x768x128 : Shape := ⟨4, ![1, 768, 768, 128]⟩

abbrev nBuf : Space → Nat
  | .hbm => 16
  | .vmem => 22
  | .smem => 0
  | _ => 0

abbrev bufTy : (tb : Table) → Fin (tcTables nBuf tb) → BufTy
  | .hbm, ⟨0, _⟩ => ⟨S1x768x384, .f32⟩
  | .hbm, ⟨1, _⟩ => ⟨S128x384, .f32⟩
  | .hbm, ⟨2, _⟩ => ⟨S128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S768x384, .f32⟩
  | .hbm, ⟨8, _⟩ => ⟨S128x128, .f32⟩
  | .hbm, ⟨9, _⟩ => ⟨S128x128, .f32⟩
  | .hbm, ⟨10, _⟩ => ⟨S768x128, .f32⟩
  | .hbm, ⟨11, _⟩ => ⟨S768x128, .f32⟩
  | .hbm, ⟨12, _⟩ => ⟨S768x128, .f32⟩
  | .hbm, ⟨13, _⟩ => ⟨S768x128, .f32⟩
  | .hbm, ⟨14, _⟩ => ⟨S768x768x128, .f32⟩
  | .hbm, ⟨15, _⟩ => ⟨S1x768x768x128, .f32⟩
  | .local _ .vmem, ⟨0, _⟩ => ⟨S768x384, .f32⟩
  | .local _ .vmem, ⟨1, _⟩ => ⟨S128x384, .f32⟩
  | .local _ .vmem, ⟨2, _⟩ => ⟨S128, .f32⟩
  | .local _ .vmem, ⟨3, _⟩ => ⟨S128x384, .f32⟩
  | .local _ .vmem, ⟨4, _⟩ => ⟨S128, .f32⟩
  | .local _ .vmem, ⟨5, _⟩ => ⟨S128x128, .f32⟩
  | .local _ .vmem, ⟨6, _⟩ => ⟨S128x128, .f32⟩
  | .local _ .vmem, ⟨7, _⟩ => ⟨S128, .f32⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S96x128, .f32⟩
  | .local _ .vmem, ⟨13, _⟩ => ⟨S96x128, .f32⟩
  | .local _ .vmem, ⟨14, _⟩ => ⟨S96x128, .f32⟩
  | .local _ .vmem, ⟨15, _⟩ => ⟨S96x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S96x128x128, .f32⟩
  | .local _ .vmem, ⟨21, _⟩ => ⟨S96x128x128, .f32⟩
  | _, _ => ⟨S1x768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S96x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S96x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S96x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S1x768x384_S768x384 : S1x768x384.ShapeCasts S768x384
  slices_S128x256_S128x128_0_0 : S128x256.Slices ![0, 0] S128x128
  slices_S128x256_S128x128_0_128 : S128x256.Slices ![0, 128] S128x128
  inb_S768x384_S768x384_0_0 : ∀ a, (![0, 0] : Fin 2 → Nat) a + S768x384.size a ≤ S768x384.size a
  h_S768x384 : 0 < S768x384.numel
  shapeCasts_S768x384_S768x384 : S768x384.ShapeCasts S768x384
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  transposes_S128x384_p1_0_S384x128 : S128x384.Transposes [1, 0] S384x128
  inb_S128_S128_0 : ∀ a, (![0] : Fin 1 → Nat) a + S128.size a ≤ S128.size a
  h_S128 : 0 < S128.numel
  shapeCasts_S128_S1x128 : S128.ShapeCasts S1x128
  broadcasts_S1x128_S768x128 : S1x128.Broadcasts S768x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S768x128_S768x128_0_0 : ∀ a, (![0, 0] : Fin 2 → Nat) a + S768x128.size a ≤ S768x128.size a
  h_S768x128 : 0 < S768x128.numel
  inb_S96x128_S96x128_0_0 : ∀ a, (![0, 0] : Fin 2 → Nat) a + S96x128.size a ≤ S96x128.size a
  h_S96x128 : 0 < S96x128.numel
  shapeCasts_S96x128_S96x128 : S96x128.ShapeCasts S96x128
  shapeCasts_S96x128_S96x1x128 : S96x128.ShapeCasts S96x1x128
  shapeCasts_S128x128_S1x128x128 : S128x128.ShapeCasts S1x128x128
  broadcasts_S96x1x128_S96x128x128 : S96x1x128.Broadcasts S96x128x128
  broadcasts_S1x128x128_S96x128x128 : S1x128x128.Broadcasts S96x128x128
  inb_S96x128x128_S96x128x128_0_0_0 : ∀ a, (![0, 0, 0] : Fin 3 → Nat) a + S96x128x128.size a ≤ S96x128x128.size a
  h_S96x128x128 : 0 < S96x128x128.numel
  bcast_S768x768x128_S1x768x768x128_1_2_3 : S768x768x128.BroadcastsInDim S1x768x768x128 (![1, 2, 3] : Fin 3 → Fin S1x768x768x128.rank)
  dot_S768x384_S384x128_S768x128_1_0_0_1_n_n_wf : DotDims.WF S768x384 S384x128 S768x128 [1] [0] [0] [1] [] []
  dot_S768x128_S128x128_S768x128_1_0_0_1_n_n_wf : DotDims.WF S768x128 S128x128 S768x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x384.size a ≤ S768x384.size a
  hwx0_0 : ∀ i : grid0.Coords, EltTy.bits .f32 = 32 ∨ (Rect.block (s := S768x384) S768x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x128.size a ≤ S768x128.size a
  hwx0_8 : ∀ i : grid0.Coords, EltTy.bits .f32 = 32 ∨ (Rect.block (s := S768x128) S768x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x128.size a ≤ S768x128.size a
  hwx0_9 : ∀ i : grid0.Coords, EltTy.bits .f32 = 32 ∨ (Rect.block (s := S768x128) S768x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x128.size a ≤ S768x128.size a
  hwx0_10 : ∀ i : grid0.Coords, EltTy.bits .f32 = 32 ∨ (Rect.block (s := S768x128) S768x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768x128.size a ≤ S768x128.size a
  hwx0_11 : ∀ i : grid0.Coords, EltTy.bits .f32 = 32 ∨ (Rect.block (s := S768x128) S768x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S96x128.size a ≤ S768x128.size a
  hwx1_0 : ∀ i : grid1.Coords, EltTy.bits .f32 = 32 ∨ (Rect.block (s := S768x128) S96x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S96x128.size a ≤ S768x128.size a
  hwx1_1 : ∀ i : grid1.Coords, EltTy.bits .f32 = 32 ∨ (Rect.block (s := S768x128) S96x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S768x128.size a
  hwx1_2 : ∀ i : grid1.Coords, EltTy.bits .f32 = 32 ∨ (Rect.block (s := S768x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S768x128.size a
  hwx1_3 : ∀ i : grid1.Coords, EltTy.bits .f32 = 32 ∨ (Rect.block (s := S768x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S96x128x128.size a ≤ S768x768x128.size a
  hwx1_4 : ∀ i : grid1.Coords, EltTy.bits .f32 = 32 ∨ (Rect.block (s := S768x768x128) S96x128x128.size (cc1_transform_4 i) (hinb1_4 i)).WholeWords (EltTy.packing .f32)

variable [Facts₀]

def dot_S768x384_S384x128_S768x128_1_0_0_1_n_n : DotDims S768x384 S384x128 S768x128 where
  lhsContracting := [1]
  rhsContracting := [0]
  lhsNonContracting := [0]
  rhsNonContracting := [1]
  lhsBatch := []
  rhsBatch := []
  wf := dot_S768x384_S384x128_S768x128_1_0_0_1_n_n_wf
def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf

abbrev win0_0 : Pipeline.Window sig grid0 :=
  Pipeline.Window.ofSpec (Memref.whole main_v0) S768x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S768x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S768x128.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S768x128.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3_3) S768x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v3_0) S96x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S96x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_3) S128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S96x128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x768x384 : Shape := ⟨3, ![1, 768, 384]⟩
abbrev S128x384 : Shape := ⟨2, ![128, 384]⟩
abbrev S128 : Shape := ⟨1, ![128]⟩
abbrev S128x256 : Shape := ⟨2, ![128, 256]⟩
abbrev S1x768x128 : Shape := ⟨3, ![1, 768, 128]⟩
abbrev S1x1x128 : Shape := ⟨3, ![1, 1, 128]⟩
abbrev S128x128 : Shape := ⟨2, ![128, 128]⟩
abbrev S1x768x1x128 : Shape := ⟨4, ![1, 768, 1, 128]⟩
abbrev S1x1x768x128 : Shape := ⟨4, ![1, 1, 768, 128]⟩
abbrev S1x768x768x128 : Shape := ⟨4, ![1, 768, 768, 128]⟩
abbrev S1x1x1x128 : Shape := ⟨4, ![1, 1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S1x768x384, .f32⟩
  | .hbm, ⟨1, _⟩ => ⟨S128x384, .f32⟩
  | .hbm, ⟨2, _⟩ => ⟨S128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x768x128, .f32⟩
  | .hbm, ⟨8, _⟩ => ⟨S1x1x128, .f32⟩
  | .hbm, ⟨9, _⟩ => ⟨S1x768x128, .f32⟩
  | .hbm, ⟨10, _⟩ => ⟨S1x768x128, .f32⟩
  | .hbm, ⟨11, _⟩ => ⟨S1x768x128, .f32⟩
  | .hbm, ⟨12, _⟩ => ⟨S1x1x128, .f32⟩
  | .hbm, ⟨13, _⟩ => ⟨S1x768x128, .f32⟩
  | .hbm, ⟨14, _⟩ => ⟨S1x768x128, .f32⟩
  | .hbm, ⟨15, _⟩ => ⟨S128x128, .f32⟩
  | .hbm, ⟨16, _⟩ => ⟨S1x768x128, .f32⟩
  | .hbm, ⟨17, _⟩ => ⟨S128x128, .f32⟩
  | .hbm, ⟨18, _⟩ => ⟨S1x768x128, .f32⟩
  | .hbm, ⟨19, _⟩ => ⟨S1x768x1x128, .f32⟩
  | .hbm, ⟨20, _⟩ => ⟨S1x1x768x128, .f32⟩
  | .hbm, ⟨21, _⟩ => ⟨S1x768x768x128, .f32⟩
  | .hbm, ⟨22, _⟩ => ⟨S1x768x768x128, .f32⟩
  | .hbm, ⟨23, _⟩ => ⟨S1x768x768x128, .f32⟩
  | .hbm, ⟨24, _⟩ => ⟨S1x1x1x128, .f32⟩
  | .hbm, ⟨25, _⟩ => ⟨S1x768x768x128, .f32⟩
  | .hbm, ⟨26, _⟩ => ⟨S1x768x768x128, .f32⟩
  | .hbm, ⟨27, _⟩ => ⟨S1x768x1x128, .f32⟩
  | .hbm, ⟨28, _⟩ => ⟨S1x1x768x128, .f32⟩
  | .hbm, ⟨29, _⟩ => ⟨S1x768x768x128, .f32⟩
  | .hbm, ⟨30, _⟩ => ⟨S1x768x768x128, .f32⟩
  | .hbm, ⟨31, _⟩ => ⟨S1x768x768x128, .f32⟩
  | .hbm, ⟨32, _⟩ => ⟨S1x768x768x128, .f32⟩
  | _, _ => ⟨S1x768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x768x128_0_1_2 : S1x1x128.BroadcastsInDim S1x768x128 (![0, 1, 2] : Fin 3 → Fin S1x768x128.rank)
  slices_S128x256_S128x128_0_0 : S128x256.Slices ![0, 0] S128x128
  slices_S128x256_S128x128_0_128 : S128x256.Slices ![0, 128] S128x128
  bcast_S1x768x128_S1x768x1x128_0_1_3 : S1x768x128.BroadcastsInDim S1x768x1x128 (![0, 1, 3] : Fin 3 → Fin S1x768x1x128.rank)
  bcast_S1x768x128_S1x1x768x128_0_2_3 : S1x768x128.BroadcastsInDim S1x1x768x128 (![0, 2, 3] : Fin 3 → Fin S1x1x768x128.rank)
  bcast_S1x768x1x128_S1x768x768x128_0_1_2_3 : S1x768x1x128.BroadcastsInDim S1x768x768x128 (![0, 1, 2, 3] : Fin 4 → Fin S1x768x768x128.rank)
  bcast_S1x1x768x128_S1x768x768x128_0_1_2_3 : S1x1x768x128.BroadcastsInDim S1x768x768x128 (![0, 1, 2, 3] : Fin 4 → Fin S1x768x768x128.rank)
  bcast_S128_S1x1x1x128_3 : S128.BroadcastsInDim S1x1x1x128 (![3] : Fin 1 → Fin S1x1x1x128.rank)
  bcast_S1x1x1x128_S1x768x768x128_0_1_2_3 : S1x1x1x128.BroadcastsInDim S1x768x768x128 (![0, 1, 2, 3] : Fin 4 → Fin S1x768x768x128.rank)
  dot_S1x768x384_S128x384_S1x768x128_2_1_01_0_n_n_wf : DotDims.WF S1x768x384 S128x384 S1x768x128 [2] [1] [0, 1] [0] [] []
  dot_S1x768x128_S128x128_S1x768x128_2_1_01_0_n_n_wf : DotDims.WF S1x768x128 S128x128 S1x768x128 [2] [1] [0, 1] [0] [] []

variable [Facts₀]

def dot_S1x768x384_S128x384_S1x768x128_2_1_01_0_n_n : DotDims S1x768x384 S128x384 S1x768x128 where
  lhsContracting := [2]
  rhsContracting := [1]
  lhsNonContracting := [0, 1]
  rhsNonContracting := [0]
  lhsBatch := []
  rhsBatch := []
  wf := dot_S1x768x384_S128x384_S1x768x128_2_1_01_0_n_n_wf
def dot_S1x768x128_S128x128_S1x768x128_2_1_01_0_n_n : DotDims S1x768x128 S128x128 S1x768x128 where
  lhsContracting := [2]
  rhsContracting := [1]
  lhsNonContracting := [0, 1]
  rhsNonContracting := [0]
  lhsBatch := []
  rhsBatch := []
  wf := dot_S1x768x128_S128x128_S1x768x128_2_1_01_0_n_n_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibRowDense.lean ====
/-
  A dense layer whose weights are stored one row per output feature, read at an index.

  For `x : [M, K]` and weights `w : [N, K]`, the product of `x` with the TRANSPOSE of `w` has, at row `p` and column `q`,
  the dot product of row `p` of `x` with row `q` of `w`.  At the extended reals a `tpu.matmul` of `x` with the transposed
  weights into a zero accumulator is exactly that sum, and adding a bias vector `b : [N]` (cast to a row and broadcast over the
  `M` rows) adds `b q`.
-/
import proofs.«155705_j3143916061385_2_alg».proof.Proof.LibPlainDot
import Idealize.ShloMosaic.Lib.ValueLayout

noncomputable section

namespace Cert.Lib

open Idealize.ShloMosaic Idealize.ShloMosaic.ValueIdx

/-- Row `p` of `x` against row `q` of `w`: `∑ k, x (p, k) · w (q, k)`. -/
def rowDot {M K N : Nat} (x : (⟨2, ![M, K]⟩ : Shape).Idx → EReal) (w : (⟨2, ![N, K]⟩ : Shape).Idx → EReal)
    (p : Fin M) (q : Fin N) : EReal :=
  ∑ k : Fin K, x (ix2 p k) * w (ix2 q k)

/-- The same plus the bias of output feature `q`. -/
def rowDense {M K N : Nat} (x : (⟨2, ![M, K]⟩ : Shape).Idx → EReal) (w : (⟨2, ![N, K]⟩ : Shape).Idx → EReal)
    (b : (⟨1, ![N]⟩ : Shape).Idx → EReal) (p : Fin M) (q : Fin N) : EReal :=
  rowDot x w p q + b (ix1 q)

/-- A `tpu.matmul` of `x` with the transposed weights into the zero accumulator, at `(p, q)`: the dot product of the two rows. -/
theorem matmul_transposed_apply {M K N : Nat} {φ₁ φ₂ : FTy} (prec : Option ContractPrecision)
    (x : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.matmul (DotDims.plain M K N) prec x (transpose ⟨2, ![K, N]⟩ [1, 0] w ht)
        (constant ⟨2, ![M, N]⟩ .f32 0x00000000#32) (ix2 p q)
      = rowDot x w p q := by
  refine (matmul_plain_zero_apply prec x (transpose ⟨2, ![K, N]⟩ [1, 0] w ht) p q).trans ?_
  exact Finset.sum_congr rfl fun k _ => congrArg (x (ix2 p k) * ·) (transpose_ix2_apply w ht k q)

/-- A bias vector cast to a row and broadcast over the rows, at `(p, q)`: the bias of column `q`. -/
theorem bias_row_apply {M N : Nat} {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply (shapeCast ⟨2, ![1, N]⟩ b hc) hb p q).trans (shapeCast_a_1a_apply b hc 0 q)

/-- The dense layer in a kernel's spelling: the matmul with the transposed weights into the zero accumulator plus the
    broadcast bias row, at `(p, q)`. -/
theorem matmul_transposed_bias_apply {M K N : Nat} {φ₁ φ₂ : FTy} (prec : Option ContractPrecision)
    (x : FVec Ideal ⟨2, ![M, K]⟩ φ₁) (w : FVec Ideal ⟨2, ![N, K]⟩ φ₂) (b : FVec Ideal ⟨1, ![N]⟩ .f32)
    (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec x (transpose ⟨2, ![K, N]⟩ [1, 0] w ht)
          (constant ⟨2, ![M, N]⟩ .f32 0x00000000#32))
        (broadcastTo ⟨2, ![M, N]⟩ (shapeCast ⟨2, ![1, N]⟩ b hc) hb) (ix2 p q)
      = rowDense x w b p q := by
  refine (addf_apply _ _ (ix2 p q)).trans ?_
  unfold rowDense
  rw [matmul_transposed_apply prec x w ht p q, bias_row_apply b hc hb p q]

end Cert.Lib

end
-- ==== Proof.Spec.lean ====
/-
  The pair initialisation as one function of its arguments.

  From a single representation `s : [L, sd]` two projections are taken, `si = s·wiᵀ + bi` and `sj = s·wjᵀ + bj`, both
  `[L, pd]`.  A linear mix of the concatenation of `si i` and `sj j` splits into the products with the two halves of its
  weight matrix, `zi = si·wmiᵀ` and `zj = sj·wmjᵀ`, and the pair entry is

      z (i, j, e) = zi (i, e) + zj (j, e) + bm e + si (i, e) · sj (j, e).

  The mix's bias `bm` can be added to `zi` once, before the outer sum, or to the outer sum afterwards.  The two orders
  differ by a rearrangement of a sum of three terms, `(a + b) + c = (a + c) + b`, which holds on the extended reals with no
  finiteness assumption: addition there is commutative and associative.
-/
import proofs.«155705_j3143916061385_2_alg».proof.Proof.LibRowDense

noncomputable section

namespace Cert.PairInit

open Idealize.ShloMosaic Idealize.ShloMosaic.ValueIdx Cert.Lib

/-- A dense layer with bias applied to every row, as an array: entry `(p, q)` is row `p` of `x` against row `q` of `w`,
    plus `b q`. -/
def denseRows {M K N : Nat} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDense x w b (i 0) (i 1)

/-- The same without a bias. -/
def mixRows {M K N : Nat} (x : (⟨2, ![M, K]⟩ : Shape).Idx → EReal) (w : (⟨2, ![N, K]⟩ : Shape).Idx → EReal) :
    (⟨2, ![M, N]⟩ : Shape).Idx → EReal :=
  fun i => rowDot x w (i 0) (i 1)

theorem denseRows_ix2 {M K N : Nat} (x : (⟨2, ![M, K]⟩ : Shape).Idx → EReal) (w : (⟨2, ![N, K]⟩ : Shape).Idx → EReal)
    (b : (⟨1, ![N]⟩ : Shape).Idx → EReal) (p : Fin M) (q : Fin N) : denseRows x w b (ix2 p q) = rowDense x w b p q := rfl

theorem mixRows_ix2 {M K N : Nat} (x : (⟨2, ![M, K]⟩ : Shape).Idx → EReal) (w : (⟨2, ![N, K]⟩ : Shape).Idx → EReal)
    (p : Fin M) (q : Fin N) : mixRows x w (ix2 p q) = rowDot x w p q := rfl

/-- The outer combination of `A` rows on the first axis with `B` rows on the second: entry `(a, b, e)` is
    `(zi (a, e) + zj (b, e)) + si (a, e) · sj (b, e)`. -/
def combine {A B P : Nat} (si zi : (⟨2, ![A, P]⟩ : Shape).Idx → EReal) (sj zj : (⟨2, ![B, P]⟩ : Shape).Idx → EReal) :
    (⟨3, ![A, B, P]⟩ : Shape).Idx → EReal :=
  fun i => (zi (ix2 (i 0) (i 2)) + zj (ix2 (i 1) (i 2))) + si (ix2 (i 0) (i 2)) * sj (ix2 (i 1) (i 2))

theorem combine_ix3 {A B P : Nat} (si zi : (⟨2, ![A, P]⟩ : Shape).Idx → EReal) (sj zj : (⟨2, ![B, P]⟩ : Shape).Idx → EReal)
    (a : Fin A) (b : Fin B) (e : Fin P) :
    combine si zi sj zj (ix3 a b e) = (zi (ix2 a e) + zj (ix2 b e)) + si (ix2 a e) * sj (ix2 b e) := rfl

/-- The pair array of the single representation `s`, with the mix's bias added to `zi` before the outer sum. -/
def pairs (s : (⟨2, ![768, 384]⟩ : Shape).Idx → EReal)
    (wi : (⟨2, ![128, 384]⟩ : Shape).Idx → EReal) (bi : (⟨1, ![128]⟩ : Shape).Idx → EReal)
    (wj : (⟨2, ![128, 384]⟩ : Shape).Idx → EReal) (bj : (⟨1, ![128]⟩ : Shape).Idx → EReal)
    (wmi wmj : (⟨2, ![128, 128]⟩ : Shape).Idx → EReal) (bm : (⟨1, ![128]⟩ : Shape).Idx → EReal) :
    (⟨3, ![768, 768, 128]⟩ : Shape).Idx → EReal :=
  combine (denseRows s wi bi) (denseRows (denseRows s wi bi) wmi bm) (denseRows s wj bj) (mixRows (denseRows s wj bj) wmj)

/-- The same entry with the bias added after the outer sum: the two orders agree on the extended reals. -/
theorem pairs_bias_last (s : (⟨2, ![768, 384]⟩ : Shape).Idx → EReal)
    (wi : (⟨2, ![128, 384]⟩ : Shape).Idx → EReal) (bi : (⟨1, ![128]⟩ : Shape).Idx → EReal)
    (wj : (⟨2, ![128, 384]⟩ : Shape).Idx → EReal) (bj : (⟨1, ![128]⟩ : Shape).Idx → EReal)
    (wmi wmj : (⟨2, ![128, 128]⟩ : Shape).Idx → EReal) (bm : (⟨1, ![128]⟩ : Shape).Idx → EReal)
    (a b : Fin 768) (e : Fin 128) :
    pairs s wi bi wj bj wmi wmj bm (ix3 a b e)
      = ((rowDot (denseRows s wi bi) wmi a e + rowDot (denseRows s wj bj) wmj b e) + bm (ix1 e))
          + denseRows s wi bi (ix2 a e) * denseRows s wj bj (ix2 b e) := by
  exact congrArg (· + denseRows s wi bi (ix2 a e) * denseRows s wj bj (ix2 b e))
    (add_right_comm (rowDot (denseRows s wi bi) wmi a e) (bm (ix1 e)) (rowDot (denseRows s wj bj) wmj b e))

end Cert.PairInit

end
-- ==== Proof.LibOuterBroadcast.lean ====
/-
  The two broadcasts of an outer combination, read at an index.

  To combine every row of one `[A, P]` array with every row of a `[B, P]` array, the first is given a unit MIDDLE axis
  (`[A, 1, P]`) and the second a unit LEADING axis (`[1, B, P]`), and both are broadcast to `[A, B, P]`.  At `(p, q, r)` the
  first then holds its entry `(p, r)` and the second its entry `(q, r)`.
-/
import Idealize.ShloMosaic.Lib.ValueLayout
import Idealize.ShloMosaic.Lib.Pipeline.Value

noncomputable section

namespace Cert.Lib

open Idealize.ShloMosaic Idealize.ShloMosaic.ValueIdx

variable {α : Type}

/-- `[A, P]` cast to `[A, 1, P]` and broadcast over the middle axis: at `(p, q, r)`, the operand at `(p, r)`. -/
theorem bcast_middle_apply {A B P : ℕ} (x : (⟨2, ![A, P]⟩ : Shape).Idx → α)
    (hc : (⟨2, ![A, P]⟩ : Shape).ShapeCasts ⟨3, ![A, 1, P]⟩) (hb : (⟨3, ![A, 1, P]⟩ : Shape).Broadcasts ⟨3, ![A, B, P]⟩)
    (p : Fin A) (q : Fin B) (r : Fin P) :
    broadcastTo ⟨3, ![A, B, P]⟩ (shapeCast ⟨3, ![A, 1, P]⟩ x hc) hb (ix3 p q r) = x (ix2 p r) := by
  refine (broadcastTo_apply (shapeCast ⟨3, ![A, 1, P]⟩ x hc) hb (ix3 p q r) (ix3 p (0 : Fin 1) r) fun ax => ?_).trans ?_
  · match ax with
    | ⟨0, _⟩ =>
      show p.val = if A = 1 then 0 else p.val
      split
      · have := p.isLt; omega
      · rfl
    | ⟨1, _⟩ => rfl
    | ⟨2, _⟩ =>
      show r.val = if P = 1 then 0 else r.val
      split
      · have := r.isLt; omega
      · rfl
  · exact shapeCast_apply x hc _ _ (by
      rw [Shape.rowMajor_val_three, Shape.rowMajor_val_two]
      show p.val * P + r.val = (p.val * 1 + 0) * P + r.val
      rw [Nat.mul_one, Nat.add_zero])

/-- `[B, P]` cast to `[1, B, P]` and broadcast over the leading axis: at `(p, q, r)`, the operand at `(q, r)`. -/
theorem bcast_leading_apply {A B P : ℕ} (x : (⟨2, ![B, P]⟩ : Shape).Idx → α)
    (hc : (⟨2, ![B, P]⟩ : Shape).ShapeCasts ⟨3, ![1, B, P]⟩) (hb : (⟨3, ![1, B, P]⟩ : Shape).Broadcasts ⟨3, ![A, B, P]⟩)
    (p : Fin A) (q : Fin B) (r : Fin P) :
    broadcastTo ⟨3, ![A, B, P]⟩ (shapeCast ⟨3, ![1, B, P]⟩ x hc) hb (ix3 p q r) = x (ix2 q r) := by
  refine (broadcastTo_apply (shapeCast ⟨3, ![1, B, P]⟩ x hc) hb (ix3 p q r) (ix3 (0 : Fin 1) q r) fun ax => ?_).trans
    (shapeCast_ab_1ab_apply x hc 0 q r)
  match ax with
  | ⟨0, _⟩ => rfl
  | ⟨1, _⟩ =>
    show q.val = if B = 1 then 0 else q.val
    split
    · have := q.isLt; omega
    · rfl
  | ⟨2, _⟩ =>
    show r.val = if P = 1 then 0 else r.val
    split
    · have := r.isLt; omega
    · rfl

/-- The outer combination in a kernel's spelling — the two `z` arrays broadcast and added, the two `s` arrays broadcast and
    multiplied, and the two results added — read at `(p, q, r)` over the extended reals. -/
theorem outer_combine_apply {A B P : ℕ} (a z : FVec Ideal ⟨2, ![A, P]⟩ .f32) (b y : FVec Ideal ⟨2, ![B, P]⟩ .f32)
    (hca : (⟨2, ![A, P]⟩ : Shape).ShapeCasts ⟨3, ![A, 1, P]⟩) (hba : (⟨3, ![A, 1, P]⟩ : Shape).Broadcasts ⟨3, ![A, B, P]⟩)
    (hcb : (⟨2, ![B, P]⟩ : Shape).ShapeCasts ⟨3, ![1, B, P]⟩) (hbb : (⟨3, ![1, B, P]⟩ : Shape).Broadcasts ⟨3, ![A, B, P]⟩)
    (p : Fin A) (q : Fin B) (r : Fin P) :
    addf (addf (broadcastTo ⟨3, ![A, B, P]⟩ (shapeCast ⟨3, ![A, 1, P]⟩ z hca) hba)
               (broadcastTo ⟨3, ![A, B, P]⟩ (shapeCast ⟨3, ![1, B, P]⟩ y hcb) hbb))
         (mulf (broadcastTo ⟨3, ![A, B, P]⟩ (shapeCast ⟨3, ![A, 1, P]⟩ a hca) hba)
               (broadcastTo ⟨3, ![A, B, P]⟩ (shapeCast ⟨3, ![1, B, P]⟩ b hcb) hbb)) (ix3 p q r)
      = (z (ix2 p r) + y (ix2 q r)) + a (ix2 p r) * b (ix2 q r) := by
  refine (addf_apply _ _ (ix3 p q r)).trans ?_
  refine congrArg₂ (· + ·) ((addf_apply _ _ (ix3 p q r)).trans ?_) ((mulf_apply _ _ (ix3 p q r)).trans ?_)
  · exact congrArg₂ (· + ·) (bcast_middle_apply z hca hba p q r) (bcast_leading_apply y hcb hbb p q r)
  · exact congrArg₂ (· * ·) (bcast_middle_apply a hca hba p q r) (bcast_leading_apply b hcb hbb p q r)

end Cert.Lib

end
-- ==== Proof.Body.lean ====
/-
  What the two kernel bodies compute, as functions of the blocks they load.

  The projection body loads `s`, the two projection weight matrices with their biases, the two halves of the mix's weight
  matrix and the mix's bias, all whole.  Each of its four results is a product with a transposed weight matrix into a zero
  accumulator, three of them plus a bias row: `si`, `sj`, `zi` (which carries the mix's bias) and `zj`.  Changes of float
  format are the identity on the extended reals.

  The combining body loads a block of `A` rows of `si` and `zi` and a block of `B` rows of `sj` and `zj`, gives the first
  pair a unit middle axis and the second a unit leading axis, broadcasts all four to `[A, B, P]` and stores
  `(zi + zj) + si · sj`.
-/
import proofs.«155705_j3143916061385_2_alg».proof.Proof.Gen.KernelIdeal.Skeleton
import proofs.«155705_j3143916061385_2_alg».proof.Proof.Spec
import proofs.«155705_j3143916061385_2_alg».proof.Proof.LibOuterBroadcast
import Idealize.ShloMosaic.Lib.Pipeline.Value

noncomputable section

namespace Cert.PairInit.Body

open Idealize.ShloMosaic Idealize.ShloMosaic.ValueIdx Cert.Lib Cert.PairInit Cert.KernelIdeal Cert.KernelIdeal.Gen

/-- The single representation, cast to its own shape and narrowed, is itself. -/
theorem narrowed_eq (x : Vec Ideal S768x384 .f32) : k0_pay1 (F := Ideal) x = x :=
  shapeCast_self x shapeCasts_S768x384_S768x384

/-- The first projection: `s·wiᵀ + bi`. -/
theorem proj_i_eq (x : Vec Ideal S768x384 .f32) (w : Vec Ideal S128x384 .f32) (b : Vec Ideal S128 .f32) :
    k0_pay2 (F := Ideal) x w b = denseRows x w b := by
  funext j
  obtain ⟨p, q, rfl⟩ : ∃ (p : Fin 768) (q : Fin 128), j = ix2 p q := ⟨j 0, j 1, eq_ix2 j⟩
  refine (matmul_transposed_bias_apply none (k0_pay1 (F := Ideal) x) w b transposes_S128x384_p1_0_S384x128
    shapeCasts_S128_S1x128 broadcasts_S1x128_S768x128 p q).trans ?_
  rw [narrowed_eq]
  rfl

/-- The second projection: `s·wjᵀ + bj`. -/
theorem proj_j_eq (x : Vec Ideal S768x384 .f32) (w : Vec Ideal S128x384 .f32) (b : Vec Ideal S128 .f32) :
    k0_pay3 (F := Ideal) x w b = denseRows x w b := by
  funext j
  obtain ⟨p, q, rfl⟩ : ∃ (p : Fin 768) (q : Fin 128), j = ix2 p q := ⟨j 0, j 1, eq_ix2 j⟩
  refine (matmul_transposed_bias_apply none (k0_pay1 (F := Ideal) x) w b transposes_S128x384_p1_0_S384x128
    shapeCasts_S128_S1x128 broadcasts_S1x128_S768x128 p q).trans ?_
  rw [narrowed_eq]
  rfl

/-- The first mixed projection, carrying the mix's bias: `si·wmiᵀ + bm`. -/
theorem mix_i_eq (x : Vec Ideal S768x384 .f32) (w : Vec Ideal S128x384 .f32) (b : Vec Ideal S128 .f32)
    (wm : Vec Ideal S128x128 .f32) (bm : Vec Ideal S128 .f32) :
    k0_pay4 (F := Ideal) x w b wm bm = denseRows (denseRows x w b) wm bm := by
  funext j
  obtain ⟨p, q, rfl⟩ : ∃ (p : Fin 768) (q : Fin 128), j = ix2 p q := ⟨j 0, j 1, eq_ix2 j⟩
  refine (matmul_transposed_bias_apply none (k0_pay2 (F := Ideal) x w b)
    (shapeCast S128x128 wm shapeCasts_S128x128_S128x128) bm transposes_S128x128_p1_0_S128x128
    shapeCasts_S128_S1x128 broadcasts_S1x128_S768x128 p q).trans ?_
  rw [proj_i_eq, shapeCast_self wm shapeCasts_S128x128_S128x128]
  rfl

/-- The second mixed projection: `sj·wmjᵀ`. -/
theorem mix_j_eq (x : Vec Ideal S768x384 .f32) (w : Vec Ideal S128x384 .f32) (b : Vec Ideal S128 .f32)
    (wm : Vec Ideal S128x128 .f32) :
    k0_pay5 (F := Ideal) x w b wm = mixRows (denseRows x w b) wm := by
  funext j
  obtain ⟨p, q, rfl⟩ : ∃ (p : Fin 768) (q : Fin 128), j = ix2 p q := ⟨j 0, j 1, eq_ix2 j⟩
  refine (matmul_transposed_apply none (k0_pay3 (F := Ideal) x w b)
    (shapeCast S128x128 wm shapeCasts_S128x128_S128x128) transposes_S128x128_p1_0_S128x128 p q).trans ?_
  rw [proj_j_eq, shapeCast_self wm shapeCasts_S128x128_S128x128]
  rfl

/-- The combining body on a block of 96 rows of `si`, `zi` and a block of 128 rows of `sj`, `zj`: the outer combination. -/
theorem combine_eq (a z : Vec Ideal S96x128 .f32) (b y : Vec Ideal S128x128 .f32) :
    k1_pay1 (F := Ideal) a z b y = combine a z b y := by
  funext j
  obtain ⟨p, q, r, rfl⟩ : ∃ (p : Fin 96) (q : Fin 128) (r : Fin 128), j = ix3 p q r := ⟨j 0, j 1, j 2, eq_ix3 j⟩
  refine (outer_combine_apply (shapeCast S96x128 a shapeCasts_S96x128_S96x128) (shapeCast S96x128 z shapeCasts_S96x128_S96x128)
    (shapeCast S128x128 b shapeCasts_S128x128_S128x128) (shapeCast S128x128 y shapeCasts_S128x128_S128x128)
    shapeCasts_S96x128_S96x1x128 broadcasts_S96x1x128_S96x128x128
    shapeCasts_S128x128_S1x128x128 broadcasts_S1x128x128_S96x128x128 p q r).trans ?_
  rw [shapeCast_self a shapeCasts_S96x128_S96x128, shapeCast_self z shapeCasts_S96x128_S96x128,
    shapeCast_self b shapeCasts_S128x128_S128x128, shapeCast_self y shapeCasts_S128x128_S128x128]
  rfl

end Cert.PairInit.Body

end
-- ==== Proof.Region0.lean ====
/-
  The projection region: its four output arrays as functions of the arrays it finds.

  The grid has one point and every window's block is its whole array (block index 0 on every axis), so a block read is the array
  itself and the one point's write-back covers each output.  The four outputs are then the body's four results of the whole
  arrays: the two projections `si`, `sj` and the two mixed projections `zi` (with the mix's bias) and `zj`.
-/
import proofs.«155705_j3143916061385_2_alg».proof.Proof.Gen.KernelIdeal.Frame
import proofs.«155705_j3143916061385_2_alg».proof.Proof.Body
import Idealize.ShloMosaic.Lib.Pipeline.Value

noncomputable section

namespace Cert.PairInit.Region0

open Cert.KernelIdeal Cert.KernelIdeal.Gen Idealize.ShloMosaic Idealize.ShloMosaic.TcCoe Idealize.SL.Sem
open Idealize.ShloMosaic.ValueIdx Cert.PairInit
open Idealize.ShloMosaic.Pipeline (Dat)

variable (V : (c : Dev nD) → (b : Ref sig .tc) → Buf (Elt Ideal) ((c : Thread nD τ).loc b))

theorem zero1 : (![0] : Fin 1 → Nat) = fun _ => 0 := funext fun a => by fin_cases a; rfl
theorem zero2 : (![0, 0] : Fin 2 → Nat) = fun _ => 0 := funext fun a => by fin_cases a <;> rfl

/-- Every input window's block index is 0 on every axis, at the grid's one point. -/
theorem in_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0 :=
  (by decide +kernel : ∀ t : Fin grid0.N, _)

/-- So is every output window's. -/
theorem out_index : ∀ t : Fin cfg0.N,
    win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The input blocks are the arrays

A block's coordinate on an axis is its block index times the block's extent plus the coordinate inside the block; with index 0
that is the coordinate itself. -/

/-- The single representation's block is the whole array. -/
theorem blk0 (c : Dev nD) (t : Fin cfg0.N) : (iblk0 V c 0 t : Vec Ideal S768x384 .f32) = V c main_v0 := by
  obtain ⟨i00, i01, -⟩ := in_index t
  refine funext fun (y : S768x384.Idx) => ?_
  show V c main_v0 (((cfg0.win 0).blk t).view.emb y) = V c main_v0 y
  refine congrArg (V c main_v0) (funext fun a => Fin.ext ?_)
  match a with
  | ⟨0, _⟩ => show win0_0.index t (0 : Fin 2) * 768 + 1 * (y 0).val = (y 0).val; omega
  | ⟨1, _⟩ => show win0_0.index t (1 : Fin 2) * 384 + 1 * (y 1).val = (y 1).val; omega

/-- The first projection's weights. -/
theorem blk1 (c : Dev nD) (t : Fin cfg0.N) : (iblk0 V c 1 t : Vec Ideal S128x384 .f32) = V c main_arg1 := by
  obtain ⟨-, -, i10, i11, -⟩ := in_index t
  refine funext fun (y : S128x384.Idx) => ?_
  show V c main_arg1 (((cfg0.win 1).blk t).view.emb y) = V c main_arg1 y
  refine congrArg (V c main_arg1) (funext fun a => Fin.ext ?_)
  match a with
  | ⟨0, _⟩ => show win0_1.index t (0 : Fin 2) * 128 + 1 * (y 0).val = (y 0).val; omega
  | ⟨1, _⟩ => show win0_1.index t (1 : Fin 2) * 384 + 1 * (y 1).val = (y 1).val; omega

/-- The first projection's bias. -/
theorem blk2 (c : Dev nD) (t : Fin cfg0.N) : (iblk0 V c 2 t : Vec Ideal S128 .f32) = V c main_arg2 := by
  obtain ⟨-, -, -, -, i20, -⟩ := in_index t
  refine funext fun (y : S128.Idx) => ?_
  show V c main_arg2 (((cfg0.win 2).blk t).view.emb y) = V c main_arg2 y
  refine congrArg (V c main_arg2) (funext fun a => Fin.ext ?_)
  match a with
  | ⟨0, _⟩ => show win0_2.index t (0 : Fin 1) * 128 + 1 * (y 0).val = (y 0).val; omega

/-- The second projection's weights. -/
theorem blk3 (c : Dev nD) (t : Fin cfg0.N) : (iblk0 V c 3 t : Vec Ideal S128x384 .f32) = V c main_arg3 := by
  obtain ⟨-, -, -, -, -, i30, i31, -⟩ := in_index t
  refine funext fun (y : S128x384.Idx) => ?_
  show V c main_arg3 (((cfg0.win 3).blk t).view.emb y) = V c main_arg3 y
  refine congrArg (V c main_arg3) (funext fun a => Fin.ext ?_)
  match a with
  | ⟨0, _⟩ => show win0_3.index t (0 : Fin 2) * 128 + 1 * (y 0).val = (y 0).val; omega
  | ⟨1, _⟩ => show win0_3.index t (1 : Fin 2) * 384 + 1 * (y 1).val = (y 1).val; omega

/-- The second projection's bias. -/
theorem blk4 (c : Dev nD) (t : Fin cfg0.N) : (iblk0 V c 4 t : Vec Ideal S128 .f32) = V c main_arg4 := by
  obtain ⟨-, -, -, -, -, -, -, i40, -⟩ := in_index t
  refine funext fun (y : S128.Idx) => ?_
  show V c main_arg4 (((cfg0.win 4).blk t).view.emb y) = V c main_arg4 y
  refine congrArg (V c main_arg4) (funext fun a => Fin.ext ?_)
  match a with
  | ⟨0, _⟩ => show win0_4.index t (0 : Fin 1) * 128 + 1 * (y 0).val = (y 0).val; omega

/-- The first half of the mix's weights. -/
theorem blk5 (c : Dev nD) (t : Fin cfg0.N) : (iblk0 V c 5 t : Vec Ideal S128x128 .f32) = V c main_v1 := by
  obtain ⟨-, -, -, -, -, -, -, -, i50, i51, -⟩ := in_index t
  refine funext fun (y : S128x128.Idx) => ?_
  show V c main_v1 (((cfg0.win 5).blk t).view.emb y) = V c main_v1 y
  refine congrArg (V c main_v1) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The second half of the mix's weights. -/
theorem blk6 (c : Dev nD) (t : Fin cfg0.N) : (iblk0 V c 6 t : Vec Ideal S128x128 .f32) = V c main_v2 := by
  obtain ⟨-, -, -, -, -, -, -, -, -, -, i60, i61, -⟩ := in_index t
  refine funext fun (y : S128x128.Idx) => ?_
  show V c main_v2 (((cfg0.win 6).blk t).view.emb y) = V c main_v2 y
  refine congrArg (V c main_v2) (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- The mix's bias. -/
theorem blk7 (c : Dev nD) (t : Fin cfg0.N) : (iblk0 V c 7 t : Vec Ideal S128 .f32) = V c main_arg6 := by
  obtain ⟨-, -, -, -, -, -, -, -, -, -, -, -, i70⟩ := in_index t
  refine funext fun (y : S128.Idx) => ?_
  show V c main_arg6 (((cfg0.win 7).blk t).view.emb y) = V c main_arg6 y
  refine congrArg (V c main_arg6) (funext fun a => Fin.ext ?_)
  match a with
  | ⟨0, _⟩ => show win0_7.index t (0 : Fin 1) * 128 + 1 * (y 0).val = (y 0).val; omega

/-! ## The output blocks sit at the arrays' own indices, and the one point covers each array -/

theorem emb8 (t : Fin cfg0.N) (j : S768x128.Idx) : ((cfg0.win 8).blk t).view.emb j = j := by
  obtain ⟨o80, o81, -⟩ := out_index t
  refine funext fun a => Fin.ext ?_
  match a with
  | ⟨0, _⟩ => show win0_8.index t (0 : Fin 2) * 768 + 1 * (j 0).val = (j 0).val; omega
  | ⟨1, _⟩ => show win0_8.index t (1 : Fin 2) * 128 + 1 * (j 1).val = (j 1).val; omega

theorem emb9 (t : Fin cfg0.N) (j : S768x128.Idx) : ((cfg0.win 9).blk t).view.emb j = j := by
  obtain ⟨-, -, o90, o91, -⟩ := out_index t
  refine funext fun a => Fin.ext ?_
  match a with
  | ⟨0, _⟩ => show win0_9.index t (0 : Fin 2) * 768 + 1 * (j 0).val = (j 0).val; omega
  | ⟨1, _⟩ => show win0_9.index t (1 : Fin 2) * 128 + 1 * (j 1).val = (j 1).val; omega

theorem emb10 (t : Fin cfg0.N) (j : S768x128.Idx) : ((cfg0.win 10).blk t).view.emb j = j := by
  obtain ⟨-, -, -, -, o100, o101, -⟩ := out_index t
  refine funext fun a => Fin.ext ?_
  match a with
  | ⟨0, _⟩ => show win0_10.index t (0 : Fin 2) * 768 + 1 * (j 0).val = (j 0).val; omega
  | ⟨1, _⟩ => show win0_10.index t (1 : Fin 2) * 128 + 1 * (j 1).val = (j 1).val; omega

theorem emb11 (t : Fin cfg0.N) (j : S768x128.Idx) : ((cfg0.win 11).blk t).view.emb j = j := by
  obtain ⟨-, -, -, -, -, -, o110, o111⟩ := out_index t
  refine funext fun a => Fin.ext ?_
  match a with
  | ⟨0, _⟩ => show win0_11.index t (0 : Fin 2) * 768 + 1 * (j 0).val = (j 0).val; omega
  | ⟨1, _⟩ => show win0_11.index t (1 : Fin 2) * 128 + 1 * (j 1).val = (j 1).val; omega

theorem cover8 (i : S768x128.Idx) :
    ∃ t : Fin cfg0.N, (cfg0.win 8).flush t = true ∧ i ∈ ((cfg0.win 8).blk t).view.set := by
  have hi0 : (i 0).val < 768 := (i 0).isLt
  have hi1 : (i 1).val < 128 := (i 1).isLt
  obtain ⟨o80, o81, -⟩ := out_index t0_0
  refine ⟨t0_0, flush0_8 t0_0, ?_⟩
  show i ∈ ((View.whole main_v3_0).slice (win0_8.rect t0_0)).set
  rw [View.set_slice_whole, Rect.mem_set_unit]
  intro a
  match a with
  | ⟨0, _⟩ => show win0_8.index t0_0 (0 : Fin 2) * 768 ≤ (i 0).val ∧ (i 0).val < win0_8.index t0_0 (0 : Fin 2) * 768 + 768; omega
  | ⟨1, _⟩ => show win0_8.index t0_0 (1 : Fin 2) * 128 ≤ (i 1).val ∧ (i 1).val < win0_8.index t0_0 (1 : Fin 2) * 128 + 128; omega

theorem cover9 (i : S768x128.Idx) :
    ∃ t : Fin cfg0.N, (cfg0.win 9).flush t = true ∧ i ∈ ((cfg0.win 9).blk t).view.set := by
  have hi0 : (i 0).val < 768 := (i 0).isLt
  have hi1 : (i 1).val < 128 := (i 1).isLt
  obtain ⟨-, -, o90, o91, -⟩ := out_index t0_0
  refine ⟨t0_0, flush0_9 t0_0, ?_⟩
  show i ∈ ((View.whole main_v3_1).slice (win0_9.rect t0_0)).set
  rw [View.set_slice_whole, Rect.mem_set_unit]
  intro a
  match a with
  | ⟨0, _⟩ => show win0_9.index t0_0 (0 : Fin 2) * 768 ≤ (i 0).val ∧ (i 0).val < win0_9.index t0_0 (0 : Fin 2) * 768 + 768; omega
  | ⟨1, _⟩ => show win0_9.index t0_0 (1 : Fin 2) * 128 ≤ (i 1).val ∧ (i 1).val < win0_9.index t0_0 (1 : Fin 2) * 128 + 128; omega

theorem cover10 (i : S768x128.Idx) :
    ∃ t : Fin cfg0.N, (cfg0.win 10).flush t = true ∧ i ∈ ((cfg0.win 10).blk t).view.set := by
  have hi0 : (i 0).val < 768 := (i 0).isLt
  have hi1 : (i 1).val < 128 := (i 1).isLt
  obtain ⟨-, -, -, -, o100, o101, -⟩ := out_index t0_0
  refine ⟨t0_0, flush0_10 t0_0, ?_⟩
  show i ∈ ((View.whole main_v3_2).slice (win0_10.rect t0_0)).set
  rw [View.set_slice_whole, Rect.mem_set_unit]
  intro a
  match a with
  | ⟨0, _⟩ => show win0_10.index t0_0 (0 : Fin 2) * 768 ≤ (i 0).val ∧ (i 0).val < win0_10.index t0_0 (0 : Fin 2) * 768 + 768; omega
  | ⟨1, _⟩ => show win0_10.index t0_0 (1 : Fin 2) * 128 ≤ (i 1).val ∧ (i 1).val < win0_10.index t0_0 (1 : Fin 2) * 128 + 128; omega

theorem cover11 (i : S768x128.Idx) :
    ∃ t : Fin cfg0.N, (cfg0.win 11).flush t = true ∧ i ∈ ((cfg0.win 11).blk t).view.set := by
  have hi0 : (i 0).val < 768 := (i 0).isLt
  have hi1 : (i 1).val < 128 := (i 1).isLt
  obtain ⟨-, -, -, -, -, -, o110, o111⟩ := out_index t0_0
  refine ⟨t0_0, flush0_11 t0_0, ?_⟩
  show i ∈ ((View.whole main_v3_3).slice (win0_11.rect t0_0)).set
  rw [View.set_slice_whole, Rect.mem_set_unit]
  intro a
  match a with
  | ⟨0, _⟩ => show win0_11.index t0_0 (0 : Fin 2) * 768 ≤ (i 0).val ∧ (i 0).val < win0_11.index t0_0 (0 : Fin 2) * 768 + 768; omega
  | ⟨1, _⟩ => show win0_11.index t0_0 (1 : Fin 2) * 128 ≤ (i 1).val ∧ (i 1).val < win0_11.index t0_0 (1 : Fin 2) * 128 + 128; omega

/-! ## What the point writes back, and the four arrays after the region -/

/-- The first projection `si`. -/
theorem flushed8_eq (c : Dev nD) (t : Fin cfg0.N) :
    (dat0 V c).flushed 8 t = ((cfg0.win 8).blk t).view.read (Elt Ideal)
      (denseRows (V c main_v0) (V c main_arg1) (V c main_arg2)) := by
  show (cfg0.win 8).cut (grid0.coords t) ((dat0 V c).after 8 t) = _
  rw [after0_8]
  unfold out0_8
  rw [View.canon_unit_zero zero2]
  simp only [View.ld_unit_zero (S := S768x384) zero2, View.ld_unit_zero (S := S128x384) zero2,
    View.ld_unit_zero (S := S128) zero1]
  rw [Body.proj_i_eq, blk0 V c t, blk1 V c t, blk2 V c t]
  refine funext fun (j : S768x128.Idx) => ?_
  exact (congrArg (denseRows (V c main_v0) (V c main_arg1) (V c main_arg2)) (emb8 t j)).symm

theorem final_si (c : Dev nD) :
    (dat0 V c).arrAt 8 cfg0.N = denseRows (V c main_v0) (V c main_arg1) (V c main_arg2) :=
  (dat0 V c).arrAt_eq_of_cover 8 _ (fun t _ => flushed8_eq V c t) cover8

/-- The second projection `sj`. -/
theorem flushed9_eq (c : Dev nD) (t : Fin cfg0.N) :
    (dat0 V c).flushed 9 t = ((cfg0.win 9).blk t).view.read (Elt Ideal)
      (denseRows (V c main_v0) (V c main_arg3) (V c main_arg4)) := by
  show (cfg0.win 9).cut (grid0.coords t) ((dat0 V c).after 9 t) = _
  rw [after0_9]
  unfold out0_9
  rw [View.canon_unit_zero zero2]
  simp only [View.ld_unit_zero (S := S768x384) zero2, View.ld_unit_zero (S := S128x384) zero2,
    View.ld_unit_zero (S := S128) zero1]
  rw [Body.proj_j_eq, blk0 V c t, blk3 V c t, blk4 V c t]
  refine funext fun (j : S768x128.Idx) => ?_
  exact (congrArg (denseRows (V c main_v0) (V c main_arg3) (V c main_arg4)) (emb9 t j)).symm

theorem final_sj (c : Dev nD) :
    (dat0 V c).arrAt 9 cfg0.N = denseRows (V c main_v0) (V c main_arg3) (V c main_arg4) :=
  (dat0 V c).arrAt_eq_of_cover 9 _ (fun t _ => flushed9_eq V c t) cover9

/-- The first mixed projection `zi`, which carries the mix's bias. -/
theorem flushed10_eq (c : Dev nD) (t : Fin cfg0.N) :
    (dat0 V c).flushed 10 t = ((cfg0.win 10).blk t).view.read (Elt Ideal)
      (denseRows (denseRows (V c main_v0) (V c main_arg1) (V c main_arg2)) (V c main_v1) (V c main_arg6)) := by
  show (cfg0.win 10).cut (grid0.coords t) ((dat0 V c).after 10 t) = _
  rw [after0_10]
  unfold out0_10
  rw [View.canon_unit_zero zero2]
  simp only [View.ld_unit_zero (S := S768x384) zero2, View.ld_unit_zero (S := S128x384) zero2,
    View.ld_unit_zero (S := S128x128) zero2, View.ld_unit_zero (S := S128) zero1]
  rw [Body.mix_i_eq, blk0 V c t, blk1 V c t, blk2 V c t, blk5 V c t, blk7 V c t]
  refine funext fun (j : S768x128.Idx) => ?_
  exact (congrArg (denseRows (denseRows (V c main_v0) (V c main_arg1) (V c main_arg2)) (V c main_v1) (V c main_arg6))
    (emb10 t j)).symm

theorem final_zi (c : Dev nD) :
    (dat0 V c).arrAt 10 cfg0.N
      = denseRows (denseRows (V c main_v0) (V c main_arg1) (V c main_arg2)) (V c main_v1) (V c main_arg6) :=
  (dat0 V c).arrAt_eq_of_cover 10 _ (fun t _ => flushed10_eq V c t) cover10

/-- The second mixed projection `zj`. -/
theorem flushed11_eq (c : Dev nD) (t : Fin cfg0.N) :
    (dat0 V c).flushed 11 t = ((cfg0.win 11).blk t).view.read (Elt Ideal)
      (mixRows (denseRows (V c main_v0) (V c main_arg3) (V c main_arg4)) (V c main_v2)) := by
  show (cfg0.win 11).cut (grid0.coords t) ((dat0 V c).after 11 t) = _
  rw [after0_11]
  unfold out0_11
  rw [View.canon_unit_zero zero2]
  simp only [View.ld_unit_zero (S := S768x384) zero2, View.ld_unit_zero (S := S128x384) zero2,
    View.ld_unit_zero (S := S128x128) zero2, View.ld_unit_zero (S := S128) zero1]
  rw [Body.mix_j_eq, blk0 V c t, blk3 V c t, blk4 V c t, blk6 V c t]
  refine funext fun (j : S768x128.Idx) => ?_
  exact (congrArg (mixRows (denseRows (V c main_v0) (V c main_arg3) (V c main_arg4)) (V c main_v2)) (emb11 t j)).symm

theorem final_zj (c : Dev nD) :
    (dat0 V c).arrAt 11 cfg0.N = mixRows (denseRows (V c main_v0) (V c main_arg3) (V c main_arg4)) (V c main_v2) :=
  (dat0 V c).arrAt_eq_of_cover 11 _ (fun t _ => flushed11_eq V c t) cover11

end Cert.PairInit.Region0

end
-- ==== Proof.Region1.lean ====
/-
  The combining region: from blocks to the whole pair array.

  The grid is 8 × 6.  Point `(g, h)` loads rows `96·g … 96·g + 95` of `si` and `zi`, rows `128·h … 128·h + 127` of `sj` and
  `zj`, and writes block `(g, h, 0)` of the `[768, 768, 128]` output.  An output entry `(a, b, e)` lies in the block of
  `g = a / 96`, `h = b / 128`, and inside that block it depends on row `a` of the first pair and row `b` of the second — the
  same rows the whole-array combination reads.  So the region's output array is the combination of the four arrays as the region
  finds them, whatever those arrays hold.
-/
import proofs.«155705_j3143916061385_2_alg».proof.Proof.Gen.KernelIdeal.Frame
import proofs.«155705_j3143916061385_2_alg».proof.Proof.Body
import Idealize.ShloMosaic.Lib.Pipeline.Value

noncomputable section

namespace Cert.PairInit.Region1

open Cert.KernelIdeal Cert.KernelIdeal.Gen Idealize.ShloMosaic Idealize.ShloMosaic.TcCoe Idealize.SL.Sem
open Idealize.ShloMosaic.ValueIdx Cert.PairInit
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the 48 points: the first two inputs move with the output's first block coordinate, the last
    two with its second, and every other block coordinate is 0. -/
theorem index_facts : ∀ t : Fin cfg1.N,
    win1_0.index t (0 : Fin 2) = win1_4.index t (0 : Fin 3) ∧ win1_0.index t (1 : Fin 2) = 0
    ∧ win1_1.index t (0 : Fin 2) = win1_4.index t (0 : Fin 3) ∧ win1_1.index t (1 : Fin 2) = 0
    ∧ win1_2.index t (0 : Fin 2) = win1_4.index t (1 : Fin 3) ∧ win1_2.index t (1 : Fin 2) = 0
    ∧ win1_3.index t (0 : Fin 2) = win1_4.index t (1 : Fin 3) ∧ win1_3.index t (1 : Fin 2) = 0
    ∧ win1_4.index t (2 : Fin 3) = 0 :=
  (by decide +kernel : ∀ t : Fin grid1.N, _)

/-- Every output block `(g, h, 0)` is some point's. -/
theorem index_onto : ∀ (g : Fin 8) (h : Fin 6), ∃ t : Fin cfg1.N, win1_4.index t = ![g.val, h.val, 0] :=
  (by decide +kernel : ∀ (g : Fin 8) (h : Fin 6), ∃ t : Fin grid1.N, win1_4.index t = ![g.val, h.val, 0])

/-- What point `t` writes back is block `t` of the combination of the four arrays as the region finds them. -/
theorem flushed_eq (c : Dev nD) (t : Fin cfg1.N) :
    (dat1 V c).flushed 4 t = ((cfg1.win 4).blk t).view.read (Elt Ideal)
      (combine (V c main_v3_0) (V c main_v3_2) (V c main_v3_1) (V c main_v3_3)) := by
  show (cfg1.win 4).cut (grid1.coords t) ((dat1 V c).after 4 t) = _
  rw [after1_4]
  unfold out1_4
  rw [View.canon_unit_zero zero3]
  simp only [View.ld_unit_zero (S := S96x128) zero2, View.ld_unit_zero (S := S128x128) zero2]
  rw [Body.combine_eq]
  obtain ⟨e0, e1, e2, e3, e4, e5, e6, e7, e8⟩ := index_facts t
  refine funext fun (j : S96x128x128.Idx) => ?_
  obtain ⟨p, q, r, rfl⟩ : ∃ (p : Fin 96) (q : Fin 128) (r : Fin 128), j = ix3 p q r := ⟨j 0, j 1, j 2, eq_ix3 j⟩
  obtain ⟨P, Q, R, hE⟩ : ∃ (P Q : Fin 768) (R : Fin 128), ((cfg1.win 4).blk t).view.emb (ix3 p q r) = ix3 P Q R :=
    ⟨_, _, _, eq_ix3 _⟩
  have hP : win1_4.index t (0 : Fin 3) * 96 + 1 * p.val = P.val := congrArg (fun f => (f 0).val) hE
  have hQ : win1_4.index t (1 : Fin 3) * 128 + 1 * q.val = Q.val := congrArg (fun f => (f 1).val) hE
  have hR : win1_4.index t (2 : Fin 3) * 128 + 1 * r.val = R.val := congrArg (fun f => (f 2).val) hE
  show combine (iblk1 V c 0 t) (iblk1 V c 1 t) (iblk1 V c 2 t) (iblk1 V c 3 t) (ix3 p q r)
      = combine (V c main_v3_0) (V c main_v3_2) (V c main_v3_1) (V c main_v3_3) (((cfg1.win 4).blk t).view.emb (ix3 p q r))
  rw [hE, combine_ix3, combine_ix3]
  have h0 : iblk1 V c 0 t (ix2 p r) = V c main_v3_0 (ix2 P R) := by
    show V c main_v3_0 (((cfg1.win 0).blk t).view.emb (ix2 p r)) = _
    refine congrArg (V c main_v3_0) (funext fun a => Fin.ext ?_)
    match a with
    | ⟨0, _⟩ => show win1_0.index t (0 : Fin 2) * 96 + 1 * p.val = P.val; omega
    | ⟨1, _⟩ => show win1_0.index t (1 : Fin 2) * 128 + 1 * r.val = R.val; omega
  have h1 : iblk1 V c 1 t (ix2 p r) = V c main_v3_2 (ix2 P R) := by
    show V c main_v3_2 (((cfg1.win 1).blk t).view.emb (ix2 p r)) = _
    refine congrArg (V c main_v3_2) (funext fun a => Fin.ext ?_)
    match a with
    | ⟨0, _⟩ => show win1_1.index t (0 : Fin 2) * 96 + 1 * p.val = P.val; omega
    | ⟨1, _⟩ => show win1_1.index t (1 : Fin 2) * 128 + 1 * r.val = R.val; omega
  have h2 : iblk1 V c 2 t (ix2 q r) = V c main_v3_1 (ix2 Q R) := by
    show V c main_v3_1 (((cfg1.win 2).blk t).view.emb (ix2 q r)) = _
    refine congrArg (V c main_v3_1) (funext fun a => Fin.ext ?_)
    match a with
    | ⟨0, _⟩ => show win1_2.index t (0 : Fin 2) * 128 + 1 * q.val = Q.val; omega
    | ⟨1, _⟩ => show win1_2.index t (1 : Fin 2) * 128 + 1 * r.val = R.val; omega
  have h3 : iblk1 V c 3 t (ix2 q r) = V c main_v3_3 (ix2 Q R) := by
    show V c main_v3_3 (((cfg1.win 3).blk t).view.emb (ix2 q r)) = _
    refine congrArg (V c main_v3_3) (funext fun a => Fin.ext ?_)
    match a with
    | ⟨0, _⟩ => show win1_3.index t (0 : Fin 2) * 128 + 1 * q.val = Q.val; omega
    | ⟨1, _⟩ => show win1_3.index t (1 : Fin 2) * 128 + 1 * r.val = R.val; omega
  rw [h0, h1, h2, h3]

/-- An output index is in point `t`'s block iff each coordinate is in the block's range on its axis. -/
theorem mem_blk (t : Fin cfg1.N) (i : S768x768x128.Idx) :
    i ∈ ((cfg1.win 4).blk t).view.set ↔ ∀ a : Fin 3, win1_4.index t a * S96x128x128.size a ≤ (i a).val
      ∧ (i a).val < win1_4.index t a * S96x128x128.size a + S96x128x128.size a := by
  show i ∈ ((View.whole main_v4).slice (win1_4.rect t)).set ↔ _
  rw [View.set_slice_whole, Rect.mem_set_unit]
  exact Iff.rfl

/-- Every output index is in some point's block: the point of `(a / 96, b / 128)`. -/
theorem cover (i : S768x768x128.Idx) :
    ∃ t : Fin cfg1.N, (cfg1.win 4).flush t = true ∧ i ∈ ((cfg1.win 4).blk t).view.set := by
  have hi0 : (i 0).val < 768 := (i 0).isLt
  have hi1 : (i 1).val < 768 := (i 1).isLt
  have hi2 : (i 2).val < 128 := (i 2).isLt
  obtain ⟨t, ht⟩ := index_onto ⟨(i 0).val / 96, by omega⟩ ⟨(i 1).val / 128, by omega⟩
  have q0 : win1_4.index t (0 : Fin 3) = (i 0).val / 96 := congrFun ht 0
  have q1 : win1_4.index t (1 : Fin 3) = (i 1).val / 128 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 96 ≤ (i 0).val ∧ (i 0).val < win1_4.index t (0 : Fin 3) * 96 + 96; omega
  | ⟨1, _⟩ => show win1_4.index t (1 : Fin 3) * 128 ≤ (i 1).val ∧ (i 1).val < win1_4.index t (1 : Fin 3) * 128 + 128; omega
  | ⟨2, _⟩ => show win1_4.index t (2 : Fin 3) * 128 ≤ (i 2).val ∧ (i 2).val < win1_4.index t (2 : Fin 3) * 128 + 128; omega

/-- The region's output array after its last point: the combination of its four input arrays. -/
theorem final (c : Dev nD) :
    (dat1 V c).arrAt 4 cfg1.N = combine (V c main_v3_0) (V c main_v3_2) (V c main_v3_1) (V c main_v3_3) :=
  (dat1 V c).arrAt_eq_of_cover 4 _ (fun t _ => flushed_eq V c t) cover

end Cert.PairInit.Region1

end
-- ==== Proof.Layout.lean ====
/-
  The pair initialisation of the arguments as they are given.

  The single representation arrives with a leading unit axis, `[1, L, sd]`; the mix's weight matrix arrives whole, `[pd, 2·pd]`,
  its left `pd` columns acting on `si` and its right `pd` columns on `sj`; and the result carries a leading unit axis,
  `[1, L, L, pd]`.  Each of these is an index map — drop the unit axis, take the columns from an offset, add a unit axis — and the
  reshape, the two slices and the broadcast that the programs use for them are those maps.
-/
import proofs.«155705_j3143916061385_2_alg».proof.Proof.Spec
import Idealize.ShloMosaic.Lib.ValueLayout
import Idealize.ShloMosaic.Lib.Pipeline.Value

noncomputable section

namespace Cert.PairInit

open Idealize.ShloMosaic Idealize.ShloMosaic.ValueIdx

variable {α : Type}

/-- A `[1, a, b]` array without its unit axis. -/
def dropLead {a b : ℕ} (x : (⟨3, ![1, a, b]⟩ : Shape).Idx → α) : (⟨2, ![a, b]⟩ : Shape).Idx → α :=
  fun j => x (ix3 (0 : Fin 1) (j 0) (j 1))

/-- The `m` columns of a matrix starting at column `o`. -/
def colsFrom {n0 n1 : ℕ} (m o : ℕ) (ho : o + m ≤ n1) (X : (⟨2, ![n0, n1]⟩ : Shape).Idx → α) :
    (⟨2, ![n0, m]⟩ : Shape).Idx → α :=
  fun j => X (ix2 (j 0) ⟨o + (j 1).val, Nat.lt_of_lt_of_le (Nat.add_lt_add_left (j 1).isLt o) ho⟩)

/-- An `[a, b, c]` array under a leading unit axis. -/
def addLead {a b c : ℕ} (X : (⟨3, ![a, b, c]⟩ : Shape).Idx → α) : (⟨4, ![1, a, b, c]⟩ : Shape).Idx → α :=
  fun i => X (ix3 (i 1) (i 2) (i 3))

/-- The cast `[1, a, b] → [a, b]` drops the unit axis. -/
theorem shapeCast_dropLead {a b : ℕ} (x : (⟨3, ![1, a, b]⟩ : Shape).Idx → α)
    (h : (⟨3, ![1, a, b]⟩ : Shape).ShapeCasts ⟨2, ![a, b]⟩) : shapeCast ⟨2, ![a, b]⟩ x h = dropLead x := by
  funext j
  obtain ⟨p, q, rfl⟩ : ∃ (p : Fin a) (q : Fin b), j = ix2 p q := ⟨j 0, j 1, eq_ix2 j⟩
  exact shapeCast_1ab_ab_apply x h p q

/-- A unit-stride slice of all rows and `m` columns from column `o` takes those columns. -/
theorem slice_colsFrom {n0 n1 m : ℕ} (o : ℕ) (ho : o + m ≤ n1) (X : (⟨2, ![n0, n1]⟩ : Shape).Idx → α)
    (h : (⟨2, ![n0, n1]⟩ : Shape).Slices ![0, o] ⟨2, ![n0, m]⟩) :
    extractStridedSlice ⟨2, ![n0, m]⟩ ![0, o] X h = colsFrom m o ho X := by
  funext j
  obtain ⟨p, q, rfl⟩ : ∃ (p : Fin n0) (q : Fin m), j = ix2 p q := ⟨j 0, j 1, eq_ix2 j⟩
  exact slice2_axis1_apply o X h p q _ rfl

/-- The broadcast `[a, b, c] → [1, a, b, c]` along the last three axes adds the unit axis. -/
theorem broadcastInDim_addLead {a b c : ℕ} (X : (⟨3, ![a, b, c]⟩ : Shape).Idx → α)
    (h : (⟨3, ![a, b, c]⟩ : Shape).BroadcastsInDim ⟨4, ![1, a, b, c]⟩ ![1, 2, 3]) :
    broadcastInDim ⟨4, ![1, a, b, c]⟩ ![1, 2, 3] h X = addLead X := by
  funext i
  have h1 : (i 1).val < a := (i 1).isLt
  have h2 : (i 2).val < b := (i 2).isLt
  have h3 : (i 3).val < c := (i 3).isLt
  refine broadcastInDim_apply _ h X i (ix3 (i 1) (i 2) (i 3)) fun ax => ?_
  match ax with
  | ⟨0, _⟩ =>
    show (i 1).val = if a = 1 then 0 else (i 1).val
    split
    · omega
    · rfl
  | ⟨1, _⟩ =>
    show (i 2).val = if b = 1 then 0 else (i 2).val
    split
    · omega
    · rfl
  | ⟨2, _⟩ =>
    show (i 3).val = if c = 1 then 0 else (i 3).val
    split
    · omega
    · rfl

/-- The pair initialisation as one function of the seven arguments as they are given. -/
def pairInit (s : (⟨3, ![1, 768, 384]⟩ : Shape).Idx → EReal)
    (wi : (⟨2, ![128, 384]⟩ : Shape).Idx → EReal) (bi : (⟨1, ![128]⟩ : Shape).Idx → EReal)
    (wj : (⟨2, ![128, 384]⟩ : Shape).Idx → EReal) (bj : (⟨1, ![128]⟩ : Shape).Idx → EReal)
    (wm : (⟨2, ![128, 256]⟩ : Shape).Idx → EReal) (bm : (⟨1, ![128]⟩ : Shape).Idx → EReal) :
    (⟨4, ![1, 768, 768, 128]⟩ : Shape).Idx → EReal :=
  addLead (pairs (dropLead s) wi bi wj bj (colsFrom 128 0 (by decide) wm) (colsFrom 128 128 (by decide) wm) bm)

end Cert.PairInit

end
-- ==== Proof.KernelRun.lean ====
/-
  The kernel program's run, with its result read.

  @main is four segments: a host stretch (the single representation's unit axis dropped, the mix's weight matrix cut into its two
  halves), the projection region, the combining region, and a host stretch that puts a unit axis on the result.  The contents of
  every buffer at each segment boundary form a fold from the launch memory: a host stretch applies its operations, a region
  replaces its output arrays by what its write-backs leave.  Every weakly fair execution ends with every unscoped buffer at the last
  boundary's contents.  Reading the result's buffer back through the fold — the broadcast, the combining region's array, the
  projection region's four arrays, the first host stretch — gives the pair initialisation of the arguments at launch.
-/
import proofs.«155705_j3143916061385_2_alg».proof.Proof.Gen.KernelIdeal.Frame
import proofs.«155705_j3143916061385_2_alg».proof.Proof.Region0
import proofs.«155705_j3143916061385_2_alg».proof.Proof.Region1
import proofs.«155705_j3143916061385_2_alg».proof.Proof.Layout
import Idealize.ShloMosaic.Lib.StableHlo.Run
import Idealize.ShloMosaic.PureOps.Ideal

noncomputable section

namespace Cert.PairInit.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.PairInit

local notation "𝕄" => MT nD τ sig Unit (Elt Ideal) ℕ (UR sig nD τ) ℕ

variable (m : (ℓ : Loc nD τ sig) → Buf (Elt Ideal) ℓ) (ρ : Dev nD → PrngReg)

/-! ## The run: every unscoped buffer ends at the last boundary's contents -/

set_option backward.isDefEq.respectTransparency.types false in
/-- At the compiled mesh, from any memory with zero counters, every weakly fair execution of @main terminates without a fault
    with every unscoped buffer of every core at the contents the fold through the four segments gives it. -/
theorem run_fold : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The first host stretch -/

/-- The single representation without its unit axis. -/
theorem entry_s (c : Dev nD) :
    (V1 m ρ c main_v0 : S768x384.Idx → EReal) = dropLead (m ((c : Thread nD τ).loc main_arg0)) := by
  refine Eq.trans ?_ (shapeCast_dropLead (m ((c : Thread nD τ).loc main_arg0)) shapeCasts_S1x768x384_S768x384)
  show StableHlo.after hostOps0 (W0 m ρ c) (Proc.devRef .tc main_v0) = _
  after_results
  rfl

/-- The left half of the mix's weight matrix. -/
theorem entry_wmi (c : Dev nD) :
    (V1 m ρ c main_v1 : S128x128.Idx → EReal) = colsFrom 128 0 (by decide) (m ((c : Thread nD τ).loc main_arg5)) := by
  refine Eq.trans ?_ (slice_colsFrom 0 (by decide) (m ((c : Thread nD τ).loc main_arg5)) slices_S128x256_S128x128_0_0)
  show StableHlo.after hostOps0 (W0 m ρ c) (Proc.devRef .tc main_v1) = _
  after_results

/-- The right half of the mix's weight matrix. -/
theorem entry_wmj (c : Dev nD) :
    (V1 m ρ c main_v2 : S128x128.Idx → EReal) = colsFrom 128 128 (by decide) (m ((c : Thread nD τ).loc main_arg5)) := by
  refine Eq.trans ?_ (slice_colsFrom 128 (by decide) (m ((c : Thread nD τ).loc main_arg5)) slices_S128x256_S128x128_0_128)
  show StableHlo.after hostOps0 (W0 m ρ c) (Proc.devRef .tc main_v2) = _
  after_results

/-- The arguments the first host stretch does not write are as launched. -/
theorem entry_wi (c : Dev nD) : V1 m ρ c main_arg1 = m ((c : Thread nD τ).loc main_arg1) := by
  show StableHlo.after hostOps0 (W0 m ρ c) (Proc.devRef .tc main_arg1) = _
  after_results
theorem entry_bi (c : Dev nD) : V1 m ρ c main_arg2 = m ((c : Thread nD τ).loc main_arg2) := by
  show StableHlo.after hostOps0 (W0 m ρ c) (Proc.devRef .tc main_arg2) = _
  after_results
theorem entry_wj (c : Dev nD) : V1 m ρ c main_arg3 = m ((c : Thread nD τ).loc main_arg3) := by
  show StableHlo.after hostOps0 (W0 m ρ c) (Proc.devRef .tc main_arg3) = _
  after_results
theorem entry_bj (c : Dev nD) : V1 m ρ c main_arg4 = m ((c : Thread nD τ).loc main_arg4) := by
  show StableHlo.after hostOps0 (W0 m ρ c) (Proc.devRef .tc main_arg4) = _
  after_results
theorem entry_bm (c : Dev nD) : V1 m ρ c main_arg6 = m ((c : Thread nD τ).loc main_arg6) := by
  show StableHlo.after hostOps0 (W0 m ρ c) (Proc.devRef .tc main_arg6) = _
  after_results

/-! ## The result, read back through the fold -/

/-- The result's buffer at the last boundary is the pair initialisation of the arguments at launch. -/
theorem result_eq (c : Dev nD) :
    (W4 m ρ c (Proc.devRef .tc main_v5) : S1x768x768x128.Idx → EReal)
      = pairInit (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  -- the last host stretch: a unit axis on the combining region's array
  have hlast : (W4 m ρ c (Proc.devRef .tc main_v5) : S1x768x768x128.Idx → EReal)
      = broadcastInDim S1x768x768x128 ![1, 2, 3] bcast_S768x768x128_S1x768x768x128_1_2_3
          (W3 m ρ c (Proc.devRef .tc main_v4)) := by
    show StableHlo.after hostOps2 (W3 m ρ c) (Proc.devRef .tc main_v5) = _
    after_results
  -- the combining region's array, of the projection region's four arrays
  have hpairs : (W3 m ρ c (Proc.devRef .tc main_v4) : S768x768x128.Idx → EReal)
      = combine (V2 m ρ c main_v3_0) (V2 m ρ c main_v3_2) (V2 m ρ c main_v3_1) (V2 m ρ c main_v3_3) :=
    (W3_arr m ρ c 4).trans (Region1.final (V2 m ρ) c)
  -- the projection region's four arrays, of the first host stretch's
  have hsi : (V2 m ρ c main_v3_0 : S768x128.Idx → EReal)
      = denseRows (V1 m ρ c main_v0) (V1 m ρ c main_arg1) (V1 m ρ c main_arg2) :=
    (W2_arr m ρ c 8).trans (Region0.final_si (V1 m ρ) c)
  have hsj : (V2 m ρ c main_v3_1 : S768x128.Idx → EReal)
      = denseRows (V1 m ρ c main_v0) (V1 m ρ c main_arg3) (V1 m ρ c main_arg4) :=
    (W2_arr m ρ c 9).trans (Region0.final_sj (V1 m ρ) c)
  have hzi : (V2 m ρ c main_v3_2 : S768x128.Idx → EReal)
      = denseRows (denseRows (V1 m ρ c main_v0) (V1 m ρ c main_arg1) (V1 m ρ c main_arg2)) (V1 m ρ c main_v1)
          (V1 m ρ c main_arg6) :=
    (W2_arr m ρ c 10).trans (Region0.final_zi (V1 m ρ) c)
  have hzj : (V2 m ρ c main_v3_3 : S768x128.Idx → EReal)
      = mixRows (denseRows (V1 m ρ c main_v0) (V1 m ρ c main_arg3) (V1 m ρ c main_arg4)) (V1 m ρ c main_v2) :=
    (W2_arr m ρ c 11).trans (Region0.final_zj (V1 m ρ) c)
  rw [hlast, broadcastInDim_addLead, hpairs, hsi, hsj, hzi, hzj, entry_s, entry_wmi, entry_wmj, entry_wi, entry_bi,
    entry_wj, entry_bj, entry_bm]
  rfl

/-! ## The run, read -/

/-- Every weakly fair execution of the kernel program ends with its result at the pair initialisation of the arguments, and the
    arguments as launched. -/
theorem run : θ_run defs (onTc (τ := τ) (main (F := Ideal))) ⟨m, fun _ => 0, ρ⟩ (fun r => ∀ c : Dev nD,
      r.2.mem ((c.tc : Thread nD τ).loc main_v5)
        = pairInit (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v5 (by decide))).trans (result_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_fold m ρ)

end Cert.PairInit.Run

end
-- ==== Proof.RefValue.lean ====
/-
  The reference computes the pair initialisation.

  The reference contracts the single representation, still carrying its unit axis, with each projection's weights and adds the
  bias; contracts each projection with its half of the mix's weight matrix; spreads `zi` over the second pair axis and `zj`
  over the first, adds them, adds the mix's bias spread over both, and adds the product of the two projections spread the same
  way.  Read at an entry `(0, a, b, e)` this is

      ((zi (a, e) + zj (b, e)) + bm e) + si (a, e) · sj (b, e),

  the pair initialisation with the bias added after the outer sum.
-/
import proofs.«155705_j3143916061385_2_alg».proof.Proof.Gen.ReferenceIdeal.Read
import proofs.«155705_j3143916061385_2_alg».proof.Proof.Layout

noncomputable section

namespace Cert.PairInit.Ref

open Cert.ReferenceIdeal Cert.ReferenceIdeal.Read Idealize.ShloMosaic Idealize.ShloMosaic.ValueIdx Cert.Lib Cert.PairInit

variable (x0 : (⟨S1x768x384, .f32⟩ : BufTy).Contents (Elt Ideal)) (x1 : (⟨S128x384, .f32⟩ : BufTy).Contents (Elt Ideal))
  (x2 : (⟨S128, .f32⟩ : BufTy).Contents (Elt Ideal)) (x3 : (⟨S128x384, .f32⟩ : BufTy).Contents (Elt Ideal))
  (x4 : (⟨S128, .f32⟩ : BufTy).Contents (Elt Ideal)) (x5 : (⟨S128x256, .f32⟩ : BufTy).Contents (Elt Ideal))
  (x6 : (⟨S128, .f32⟩ : BufTy).Contents (Elt Ideal))

/-- The first slice of the mix's weight matrix is its left half. -/
theorem left_half : val_main_v8 (F := Ideal) x5 = colsFrom 128 0 (by decide) x5 := by
  unfold val_main_v8
  exact slice_colsFrom 0 (by decide) x5 _

/-- The second slice is its right half. -/
theorem right_half : val_main_v10 (F := Ideal) x5 = colsFrom 128 128 (by decide) x5 := by
  unfold val_main_v10
  exact slice_colsFrom 128 (by decide) x5 _

/-- The first projection at row `p`, feature `q`. -/
theorem si_apply (p : Fin 768) (q : Fin 128) :
    val_main_v3 (F := Ideal) x0 x1 x2 (ix3 (0 : Fin 1) p q) = denseRows (dropLead x0) x1 x2 (ix2 p q) := by
  rw [val_main_v3_apply, val_main_v0_apply, val_main_v2_apply, val_main_v1_apply]
  have hl : ∀ k : Fin 384, lidx_main_v0 (ix3 (0 : Fin 1) p q) k = ix3 (0 : Fin 1) p k := fun k =>
    funext fun a => Fin.ext (by match a with | ⟨0, _⟩ => rfl | ⟨1, _⟩ => rfl | ⟨2, _⟩ => rfl)
  have hr : ∀ k : Fin 384, ridx_main_v0 (ix3 (0 : Fin 1) p q) k = ix2 q k := fun k =>
    funext fun a => Fin.ext (by match a with | ⟨0, _⟩ => rfl | ⟨1, _⟩ => rfl)
  have hb : idx_main_v1 (idx_main_v2 (ix3 (0 : Fin 1) p q)) = ix1 q :=
    funext fun a => Fin.ext (by match a with | ⟨0, _⟩ => rfl)
  simp only [hl, hr, hb]
  rfl

/-- The second projection at row `p`, feature `q`. -/
theorem sj_apply (p : Fin 768) (q : Fin 128) :
    val_main_v7 (F := Ideal) x0 x3 x4 (ix3 (0 : Fin 1) p q) = denseRows (dropLead x0) x3 x4 (ix2 p q) := by
  rw [val_main_v7_apply, val_main_v4_apply, val_main_v6_apply, val_main_v5_apply]
  have hl : ∀ k : Fin 384, lidx_main_v4 (ix3 (0 : Fin 1) p q) k = ix3 (0 : Fin 1) p k := fun k =>
    funext fun a => Fin.ext (by match a with | ⟨0, _⟩ => rfl | ⟨1, _⟩ => rfl | ⟨2, _⟩ => rfl)
  have hr : ∀ k : Fin 384, ridx_main_v4 (ix3 (0 : Fin 1) p q) k = ix2 q k := fun k =>
    funext fun a => Fin.ext (by match a with | ⟨0, _⟩ => rfl | ⟨1, _⟩ => rfl)
  have hb : idx_main_v5 (idx_main_v6 (ix3 (0 : Fin 1) p q)) = ix1 q :=
    funext fun a => Fin.ext (by match a with | ⟨0, _⟩ => rfl)
  simp only [hl, hr, hb]
  rfl

/-- The first mixed projection (no bias yet) at row `p`, feature `q`. -/
theorem zi_apply (p : Fin 768) (q : Fin 128) :
    val_main_v9 (F := Ideal) x0 x1 x2 x5 (ix3 (0 : Fin 1) p q)
      = rowDot (denseRows (dropLead x0) x1 x2) (colsFrom 128 0 (by decide) x5) p q := by
  rw [val_main_v9_apply]
  unfold rowDot
  refine Finset.sum_congr rfl fun k _ => ?_
  have hl : lidx_main_v9 (ix3 (0 : Fin 1) p q) k = ix3 (0 : Fin 1) p k :=
    funext fun a => Fin.ext (by match a with | ⟨0, _⟩ => rfl | ⟨1, _⟩ => rfl | ⟨2, _⟩ => rfl)
  have hr : ridx_main_v9 (ix3 (0 : Fin 1) p q) k = ix2 q k :=
    funext fun a => Fin.ext (by match a with | ⟨0, _⟩ => rfl | ⟨1, _⟩ => rfl)
  rw [hl, hr, si_apply, left_half]

/-- The second mixed projection at row `p`, feature `q`. -/
theorem zj_apply (p : Fin 768) (q : Fin 128) :
    val_main_v11 (F := Ideal) x0 x3 x4 x5 (ix3 (0 : Fin 1) p q)
      = rowDot (denseRows (dropLead x0) x3 x4) (colsFrom 128 128 (by decide) x5) p q := by
  rw [val_main_v11_apply]
  unfold rowDot
  refine Finset.sum_congr rfl fun k _ => ?_
  have hl : lidx_main_v11 (ix3 (0 : Fin 1) p q) k = ix3 (0 : Fin 1) p k :=
    funext fun a => Fin.ext (by match a with | ⟨0, _⟩ => rfl | ⟨1, _⟩ => rfl | ⟨2, _⟩ => rfl)
  have hr : ridx_main_v11 (ix3 (0 : Fin 1) p q) k = ix2 q k :=
    funext fun a => Fin.ext (by match a with | ⟨0, _⟩ => rfl | ⟨1, _⟩ => rfl)
  rw [hl, hr, sj_apply, right_half]

/-- The reference's result is the pair initialisation of its arguments. -/
theorem result_eq : val_main_v25 (F := Ideal) x0 x1 x2 x3 x4 x5 x6 = pairInit x0 x1 x2 x3 x4 x5 x6 := by
  funext i
  obtain ⟨u, a, b, e, rfl⟩ : ∃ (u : Fin 1) (a b : Fin 768) (e : Fin 128), i = ix4 u a b e :=
    ⟨i 0, i 1, i 2, i 3, eq_ix4 i⟩
  rw [val_main_v25_apply, val_main_v19_apply, val_main_v16_apply, val_main_v24_apply,
    val_main_v14_apply, val_main_v12_apply, val_main_v15_apply, val_main_v13_apply,
    val_main_v18_apply, val_main_v17_apply,
    val_main_v22_apply, val_main_v20_apply, val_main_v23_apply, val_main_v21_apply]
  have hzi : idx_main_v12 (idx_main_v14 (ix4 u a b e)) = ix3 (0 : Fin 1) a e :=
    funext fun x => Fin.ext (by match x with | ⟨0, _⟩ => rfl | ⟨1, _⟩ => rfl | ⟨2, _⟩ => rfl)
  have hzj : idx_main_v13 (idx_main_v15 (ix4 u a b e)) = ix3 (0 : Fin 1) b e :=
    funext fun x => Fin.ext (by match x with | ⟨0, _⟩ => rfl | ⟨1, _⟩ => rfl | ⟨2, _⟩ => rfl)
  have hbm : idx_main_v17 (idx_main_v18 (ix4 u a b e)) = ix1 e :=
    funext fun x => Fin.ext (by match x with | ⟨0, _⟩ => rfl)
  have hsi : idx_main_v20 (idx_main_v22 (ix4 u a b e)) = ix3 (0 : Fin 1) a e :=
    funext fun x => Fin.ext (by match x with | ⟨0, _⟩ => rfl | ⟨1, _⟩ => rfl | ⟨2, _⟩ => rfl)
  have hsj : idx_main_v21 (idx_main_v23 (ix4 u a b e)) = ix3 (0 : Fin 1) b e :=
    funext fun x => Fin.ext (by match x with | ⟨0, _⟩ => rfl | ⟨1, _⟩ => rfl | ⟨2, _⟩ => rfl)
  rw [hzi, hzj, hbm, hsi, hsj, zi_apply, zj_apply, si_apply, sj_apply]
  exact (pairs_bias_last (dropLead x0) x1 x2 x3 x4 (colsFrom 128 0 (by decide) x5) (colsFrom 128 128 (by decide) x5) x6
    a b e).symm

end Cert.PairInit.Ref

end
-- ==== Proof.lean ====
/-
  Pair initialisation with an outer-product mix: a two-stage kernel against its plain reference, on the extended reals.

  From a single representation `s : [1, L, sd]` both programs take two projections `si = s·wiᵀ + bi`, `sj = s·wjᵀ + bj`, mix each
  with its half of one weight matrix, `zi = si·wmiᵀ`, `zj = sj·wmjᵀ`, and fill the pair array

      z (i, j, e) = zi (i, e) + zj (j, e) + bm e + si (i, e) · sj (j, e).

  The kernel computes `si`, `sj`, `zi + bm` and `zj` in one stage and combines them tile by tile in a second, so its entry is
  `((zi + bm) + zj) + si · sj`; the reference adds the bias after the outer sum, `((zi + zj) + bm) + si · sj`.  The two differ by
  the order of a sum of three terms, and addition of extended reals is commutative and associative, so they agree whatever the
  inputs hold: the finiteness of the inputs is not used.  Narrowing the operands of the kernel's products to a shorter float
  format is the identity on the extended reals, and a product into a zero accumulator is the plain sum of products the
  reference's contraction is.

  `Cert.PairInit.pairInit` is the pair array as one function of the seven arguments.  The kernel program's run ends with its
  result at that function of the launch memory (`Cert.PairInit.Run.run`), the reference's run with its result at the same
  function of its own (`Cert.PairInit.Ref.result_eq` over the reference's run), and the two memories agree on the arguments.
  The three programs' runs leaving their arguments unchanged are the runs themselves with the result forgotten; the idealized
  kernel is the kernel's own text read at the extended reals, with nothing rewritten.
-/
import proofs.«155705_j3143916061385_2_alg».proof.Defs
import proofs.«155705_j3143916061385_2_alg».proof.Proof.Gen.Kernel
import proofs.«155705_j3143916061385_2_alg».proof.Proof.Gen.Kernel.Skeleton
import proofs.«155705_j3143916061385_2_alg».proof.Proof.Gen.Kernel.Launch
import proofs.«155705_j3143916061385_2_alg».proof.Proof.Gen.Kernel.Points
import proofs.«155705_j3143916061385_2_alg».proof.Proof.Gen.Kernel.Frame
import proofs.«155705_j3143916061385_2_alg».proof.Proof.Gen.KernelIdeal
import proofs.«155705_j3143916061385_2_alg».proof.Proof.Gen.KernelIdeal.Skeleton
import proofs.«155705_j3143916061385_2_alg».proof.Proof.Gen.KernelIdeal.Launch
import proofs.«155705_j3143916061385_2_alg».proof.Proof.Gen.KernelIdeal.Points
import proofs.«155705_j3143916061385_2_alg».proof.Proof.Gen.KernelIdeal.Frame
import proofs.«155705_j3143916061385_2_alg».proof.Proof.Gen.ReferenceIdeal
import proofs.«155705_j3143916061385_2_alg».proof.Proof.Gen.ReferenceIdeal.Run
import proofs.«155705_j3143916061385_2_alg».proof.Proof.Gen.ReferenceIdeal.Read
import proofs.«155705_j3143916061385_2_alg».proof.Proof.Gen.Pre_finite_inputs
import proofs.«155705_j3143916061385_2_alg».proof.Proof.KernelRun
import proofs.«155705_j3143916061385_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading at the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result forgotten. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the pair initialisation of those arguments: the kernel's
    run read through its two stages, the reference's run read operation by operation, one function of the arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.PairInit.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v25_eq, Cert.PairInit.Ref.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
